-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x1024 : Shape := ⟨2, ![512, 1024]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S8192x512 .f32) (main_arg2 : FVec F S8192x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩

abbrev nBuf : Space → Nat
  | .hbm => 41
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .f32⟩
  | .hbm, ⟨22, _⟩ => ⟨S512x512, .bf16⟩
  | .hbm, ⟨23, _⟩ => ⟨S512x512, .f32⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .f32⟩
  | .hbm, ⟨28, _⟩ => ⟨S512x512, .bf16⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S8192x512, .f32⟩
  | .hbm, ⟨40, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S512x1024_S512x512_0_0 : S512x1024.Slices ![0, 0] S512x512
  transposes_S512x512_S512x512_1_0 : S512x512.Transposes [1, 0] S512x512
  bitsLt_bf16_f32 : FTy.bits .bf16 < FTy.bits .f32
  slices_S512x1024_S512x512_0_512 : S512x1024.Slices ![0, 512] S512x512
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S8192x512.size a
  hwx0_15 : ∀ i : grid0.Coords, EltTy.bits .f32 = 32 ∨ (Rect.block (s := S8192x512) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S8192x512.size a
  hwx0_16 : ∀ i : grid0.Coords, EltTy.bits .f32 = 32 ∨ (Rect.block (s := S8192x512) S512x512.size (cc0_transform_16 i) (hinb0_16 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28_0) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v28_1) S512x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x1024 : Shape := ⟨2, ![512, 1024]⟩
abbrev S512 : Shape := ⟨1, ![512]⟩
abbrev S8192x1024 : Shape := ⟨2, ![8192, 1024]⟩
abbrev S1024x512 : Shape := ⟨2, ![1024, 512]⟩
abbrev S1x512 : Shape := ⟨2, ![1, 512]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S8192x1024, .f32⟩
  | .hbm, ⟨12, _⟩ => ⟨S1024x512, .f32⟩
  | .hbm, ⟨13, _⟩ => ⟨S8192x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S1024x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S1024x512, .f32⟩
  | .hbm, ⟨39, _⟩ => ⟨S8192x512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S1024x512, .f32⟩
  | .hbm, ⟨52, _⟩ => ⟨S8192x512, .f32⟩
  | .hbm, ⟨53, _⟩ => ⟨S1x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S8192x512_S8192x512_S8192x1024_d1 : Shape.Concatenates [S8192x512, S8192x512] S8192x1024 1
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x1024_S1024x512_S8192x512_1_0_0_1_n_n_wf : DotDims.WF S8192x1024 S1024x512 S8192x512 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.LstmSpec.lean ====
/-
  One step of an LSTM cell on extended reals, entry by entry.

  For a batch row `r` and a hidden unit `j` each of the four gates has the pre-activation
      pre W b (r, j) = Σ_{k<512} x(r,k)·W(j,k) + Σ_{k<512} h(r,k)·W(j,512+k) + b(j),
  the contraction of the joined row [x(r,·), h(r,·)] with row `j` of the 512×1024 weight, written as its two halves.
  With σ the logistic function the cell computes
      c'(r,j) = σ(pre W_f b_f)·c(r,j) + σ(pre W_i b_i)·tanh(pre W_c b_c),
      h'(r,j) = σ(pre W_o b_o)·tanh(c'(r,j)).
  `sum_halves` is the one law that joins the two ways of writing the contraction: a sum over 1024 positions is the
  sum over the first 512 plus the sum over the last 512; it holds in any commutative monoid, so no entry has to be finite.
-/
import Idealize.ShloMosaic.PureOps.Ideal
import Idealize.ShloMosaic.Lib.ValueIdx

noncomputable section

namespace Cert.Lstm

open Idealize.ShloMosaic Idealize.ShloMosaic.ValueIdx

/-- Batch rows by hidden units: the shape of `x`, `h`, `c` and of both results. -/
abbrev SBH : Shape := ⟨2, ![8192, 512]⟩
/-- A gate's weight: one row per hidden unit, 512 input columns then 512 hidden columns. -/
abbrev SW : Shape := ⟨2, ![512, 1024]⟩
/-- A gate's bias. -/
abbrev SBias : Shape := ⟨1, ![512]⟩

/-- Column `k` of the input half of a weight row. -/
def lo (k : Fin 512) : Fin 1024 := ⟨k.val, by omega⟩
/-- Column `512 + k`: column `k` of the hidden half of a weight row. -/
def hi (k : Fin 512) : Fin 1024 := ⟨512 + k.val, by omega⟩

/-- A sum over 1024 positions is the sum over the first 512 plus the sum over the last 512. -/
theorem sum_halves {M : Type*} [AddCommMonoid M] (f : Fin 1024 → M) :
    ∑ k : Fin 1024, f k = ∑ k : Fin 512, f (lo k) + ∑ k : Fin 512, f (hi k) := by
  have e := Fin.sum_univ_add (a := 512) (b := 512) (f : Fin (512 + 512) → M)
  exact e

/-- A gate's pre-activation at batch row `r`, hidden unit `j`. -/
def pre (x h : SBH.Idx → EReal) (W : SW.Idx → EReal) (b : SBias.Idx → EReal) (r : Fin 8192) (j : Fin 512) : EReal :=
  ((∑ k : Fin 512, x (ix2 r k) * W (ix2 j (lo k))) + ∑ k : Fin 512, h (ix2 r k) * W (ix2 j (hi k))) + b (ix1 j)

/-- The new cell state at `(r, j)`. -/
def cNext (x h c : SBH.Idx → EReal) (Wi : SW.Idx → EReal) (bi : SBias.Idx → EReal) (Wf : SW.Idx → EReal) (bf : SBias.Idx → EReal)
    (Wc : SW.Idx → EReal) (bc : SBias.Idx → EReal) (r : Fin 8192) (j : Fin 512) : EReal :=
  Ideal.logistic (pre x h Wf bf r j) * c (ix2 r j) + Ideal.logistic (pre x h Wi bi r j) * Ideal.tanh (pre x h Wc bc r j)

/-- The new hidden state at `(r, j)`. -/
def hNext (x h c : SBH.Idx → EReal) (Wi : SW.Idx → EReal) (bi : SBias.Idx → EReal) (Wf : SW.Idx → EReal) (bf : SBias.Idx → EReal)
    (Wc : SW.Idx → EReal) (bc : SBias.Idx → EReal) (Wo : SW.Idx → EReal) (bo : SBias.Idx → EReal) (r : Fin 8192) (j : Fin 512) : EReal :=
  Ideal.logistic (pre x h Wo bo r j) * Ideal.tanh (cNext x h c Wi bi Wf bf Wc bc r j)

/-- The new cell state as one array. -/
def Gc (x h c : SBH.Idx → EReal) (Wi : SW.Idx → EReal) (bi : SBias.Idx → EReal) (Wf : SW.Idx → EReal) (bf : SBias.Idx → EReal)
    (Wc : SW.Idx → EReal) (bc : SBias.Idx → EReal) : SBH.Idx → EReal :=
  fun i => cNext x h c Wi bi Wf bf Wc bc (i 0) (i 1)

/-- The new hidden state as one array. -/
def Gh (x h c : SBH.Idx → EReal) (Wi : SW.Idx → EReal) (bi : SBias.Idx → EReal) (Wf : SW.Idx → EReal) (bf : SBias.Idx → EReal)
    (Wc : SW.Idx → EReal) (bc : SBias.Idx → EReal) (Wo : SW.Idx → EReal) (bo : SBias.Idx → EReal) : SBH.Idx → EReal :=
  fun i => hNext x h c Wi bi Wf bf Wc bc Wo bo (i 0) (i 1)

end Cert.Lstm

end
-- ==== Proof.BlockGate.lean ====
/-
  The kernel's arithmetic on one block of 512 batch rows, read entry by entry on extended reals.

  The body forms, for each gate, the block of pre-activations  X·Wx + H·Wh + B : the two 512×512 matrix products
  (each into a zero accumulator, their operands' change of float format the identity here) and the bias row
  broadcast down the block. Entry (p, q) of that block is
      Σ_k X(p,k)·Wx(k,q) + Σ_k H(p,k)·Wh(k,q) + B(0,q).
  The two stored blocks are  σ(g_f)·C + σ(g_i)·tanh(g_c)  and  σ(g_o)·tanh(of the former).
-/
import proofs.«119501_j2052994367705_1_alg».proof.Proof.Gen.KernelIdeal.Skeleton
import proofs.«119501_j2052994367705_1_alg».proof.Proof.LstmSpec
import Idealize.ShloMosaic.Lib.Pipeline.Value
import Idealize.ShloMosaic.Lib.ValueIdx
import Idealize.ShloMosaic.PureOps.Ideal.Laws

noncomputable section

namespace Cert.KernelIdeal.Blk

open Cert.KernelIdeal Cert.KernelIdeal.Gen Idealize.ShloMosaic Idealize.ShloMosaic.TcCoe Idealize.ShloMosaic.ValueIdx

/-! ## A 512×512 by 512×512 product into zero, at an entry -/

theorem lhs_row (i : S512x512.Idx) (κ : dot_S512x512_S512x512_S512x512_1_0_0_1_n_n.contr.Idx) :
    (dot_S512x512_S512x512_S512x512_1_0_0_1_n_n.lhsIdx i κ 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl

theorem lhs_col (i : S512x512.Idx) (κ : dot_S512x512_S512x512_S512x512_1_0_0_1_n_n.contr.Idx) :
    (dot_S512x512_S512x512_S512x512_1_0_0_1_n_n.lhsIdx i κ 1).val = (κ ⟨0, by decide⟩).val :=
  dot_S512x512_S512x512_S512x512_1_0_0_1_n_n.lhsIdx_val_of_single rfl i κ

theorem rhs_row (i : S512x512.Idx) (κ : dot_S512x512_S512x512_S512x512_1_0_0_1_n_n.contr.Idx) :
    (dot_S512x512_S512x512_S512x512_1_0_0_1_n_n.rhsIdx i κ 0).val = (κ ⟨0, by decide⟩).val :=
  dot_S512x512_S512x512_S512x512_1_0_0_1_n_n.rhsIdx_val_of_single rfl i κ

theorem rhs_col (i : S512x512.Idx) (κ : dot_S512x512_S512x512_S512x512_1_0_0_1_n_n.contr.Idx) :
    (dot_S512x512_S512x512_S512x512_1_0_0_1_n_n.rhsIdx i κ 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Entry (p, q) of a product into the zero accumulator: the sum over k of a(p,k)·b(k,q). -/
theorem mm_apply (a b : FVec Ideal S512x512 .bf16) (p q : Fin 512) :
    matmul dot_S512x512_S512x512_S512x512_1_0_0_1_n_n none a b (constant (F := Ideal) S512x512 .f32 0x00000000#32) (ix2 p q)
      = ∑ k : Fin 512, a (ix2 p k) * b (ix2 k q) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_row _ _
    | ⟨1, _⟩ => exact (lhs_col _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_row _ _).trans hk
    | ⟨1, _⟩ => exact rhs_col _ _)
  rw [el, er]

/-! ## One gate's block of pre-activations -/

/-- X·Wx + H·Wh + B for a block of rows: the term every gate of the body computes. -/
def gateVec (x h : Vec Ideal S512x512 .f32) (wx wh : Vec Ideal S512x512 .bf16) (b : Vec Ideal S1x512 .f32) : FVec Ideal S512x512 .f32 :=
  addf (addf (matmul dot_S512x512_S512x512_S512x512_1_0_0_1_n_n none (truncf .bf16 x bitsLt_bf16_f32) (shapeCast S512x512 wx shapeCasts_S512x512_S512x512 : FVec Ideal S512x512 .bf16) (constant S512x512 .f32 0x00000000#32))
      (matmul dot_S512x512_S512x512_S512x512_1_0_0_1_n_n none (truncf .bf16 h bitsLt_bf16_f32) (shapeCast S512x512 wh shapeCasts_S512x512_S512x512 : FVec Ideal S512x512 .bf16) (constant S512x512 .f32 0x00000000#32)))
    (broadcastTo S512x512 (shapeCast S1x512 b shapeCasts_S1x512_S1x512 : FVec Ideal S1x512 .f32) broadcasts_S1x512_S512x512)

/-- The bias row broadcast down the block, at (p, q), is the row's entry q. -/
theorem bias_apply (b : Vec Ideal S1x512 .f32) (p q : Fin 512) :
    broadcastTo S512x512 (shapeCast S1x512 b shapeCasts_S1x512_S1x512 : FVec Ideal S1x512 .f32) broadcasts_S1x512_S512x512 (ix2 p q) = b (ix2 (0 : Fin 1) q) := by
  rw [shapeCast_self]
  exact broadcastTo_apply b broadcasts_S1x512_S512x512 (ix2 p q) (ix2 (0 : Fin 1) q) (fun a => by
    match a with
    | ⟨0, _⟩ => rfl
    | ⟨1, _⟩ => rfl)

/-- Entry (p, q) of a gate's block. -/
theorem gateVec_apply (x h : Vec Ideal S512x512 .f32) (wx wh : Vec Ideal S512x512 .bf16) (b : Vec Ideal S1x512 .f32) (p q : Fin 512) :
    gateVec x h wx wh b (ix2 p q)
      = ((∑ k : Fin 512, x (ix2 p k) * wx (ix2 k q)) + ∑ k : Fin 512, h (ix2 p k) * wh (ix2 k q)) + b (ix2 (0 : Fin 1) q) := by
  unfold gateVec
  rw [addf_apply, addf_apply, mm_apply, mm_apply, bias_apply]
  simp only [shapeCast_self, truncf_apply]

/-! ## The two stored payloads over the gates' blocks -/

theorem pay_i (x0 x1 : Vec Ideal S512x512 .f32) (x3 x4 : Vec Ideal S512x512 .bf16) (x5 : Vec Ideal S1x512 .f32) :
    k0_pay5 x0 x1 x3 x4 x5 = logistic (gateVec x0 x1 x3 x4 x5) := rfl

theorem pay_f (x0 x1 : Vec Ideal S512x512 .f32) (x6 x7 : Vec Ideal S512x512 .bf16) (x8 : Vec Ideal S1x512 .f32) :
    k0_pay6 x0 x1 x6 x7 x8 = logistic (gateVec x0 x1 x6 x7 x8) := rfl

/-- The block stored to the cell-state output. -/
theorem pay_c (x0 x1 x2 : Vec Ideal S512x512 .f32) (x3 x4 : Vec Ideal S512x512 .bf16) (x5 : Vec Ideal S1x512 .f32)
    (x6 x7 : Vec Ideal S512x512 .bf16) (x8 : Vec Ideal S1x512 .f32) (x9 x10 : Vec Ideal S512x512 .bf16) (x11 : Vec Ideal S1x512 .f32) :
    k0_pay1 (k0_pay3 x0) (k0_pay4 x1) x2 (k0_pay5 x0 x1 x3 x4 x5) (k0_pay6 x0 x1 x6 x7 x8) x9 x10 x11
      = addf (mulf (logistic (gateVec x0 x1 x6 x7 x8)) x2) (mulf (logistic (gateVec x0 x1 x3 x4 x5)) (tanh (gateVec x0 x1 x9 x10 x11))) := rfl

/-- The block stored to the hidden-state output. -/
theorem pay_h (x0 x1 x2 : Vec Ideal S512x512 .f32) (x3 x4 : Vec Ideal S512x512 .bf16) (x5 : Vec Ideal S1x512 .f32)
    (x6 x7 : Vec Ideal S512x512 .bf16) (x8 : Vec Ideal S1x512 .f32) (x9 x10 : Vec Ideal S512x512 .bf16) (x11 : Vec Ideal S1x512 .f32)
    (x12 x13 : Vec Ideal S512x512 .bf16) (x14 : Vec Ideal S1x512 .f32) :
    k0_pay2 (k0_pay3 x0) (k0_pay4 x1) x2 (k0_pay5 x0 x1 x3 x4 x5) (k0_pay6 x0 x1 x6 x7 x8) (k0_pay7 x0 x12) x13 x14 x9 x10 x11
      = mulf (logistic (gateVec x0 x1 x12 x13 x14))
          (tanh (addf (mulf (logistic (gateVec x0 x1 x6 x7 x8)) x2) (mulf (logistic (gateVec x0 x1 x3 x4 x5)) (tanh (gateVec x0 x1 x9 x10 x11))))) := rfl

/-! ## From a block's entries to the cell step at a batch row

If the loaded blocks hold, on row p and column q, the entries of the arguments that batch row r and hidden unit q
need — the rows r of x and h, the entry (r, q) of c, rows q of the weights (their two halves, transposed) and the
entries q of the biases — then the stored blocks at (p, q) are the cell step at (r, q). -/

open Cert.Lstm in
/-- A gate's block at (p, q) is the gate's pre-activation at batch row r, hidden unit q. -/
theorem pre_of_blocks (x h : SBH.Idx → EReal) (W : SW.Idx → EReal) (b : SBias.Idx → EReal)
    (X H : Vec Ideal S512x512 .f32) (WX WH : Vec Ideal S512x512 .bf16) (B : Vec Ideal S1x512 .f32) (r : Fin 8192) (p q : Fin 512)
    (hX : ∀ k : Fin 512, X (ix2 p k) = x (ix2 r k)) (hH : ∀ k : Fin 512, H (ix2 p k) = h (ix2 r k))
    (hWX : ∀ k : Fin 512, WX (ix2 k q) = W (ix2 q (lo k))) (hWH : ∀ k : Fin 512, WH (ix2 k q) = W (ix2 q (hi k)))
    (hB : B (ix2 (0 : Fin 1) q) = b (ix1 q)) :
    gateVec X H WX WH B (ix2 p q) = pre x h W b r q := by
  rw [gateVec_apply]
  unfold pre
  refine congrArg₂ (· + ·) (congrArg₂ (· + ·) (Finset.sum_congr rfl fun k _ => ?_) (Finset.sum_congr rfl fun k _ => ?_)) hB
  · exact congrArg₂ (· * ·) (hX k) (hWX k)
  · exact congrArg₂ (· * ·) (hH k) (hWH k)

open Cert.Lstm in
/-- The block stored to the cell-state output, at (p, q), is the new cell state at (r, q). -/
theorem cell_of_blocks (x h c : SBH.Idx → EReal) (Wi : SW.Idx → EReal) (bi : SBias.Idx → EReal) (Wf : SW.Idx → EReal) (bf : SBias.Idx → EReal)
    (Wc : SW.Idx → EReal) (bc : SBias.Idx → EReal)
    (X H C : Vec Ideal S512x512 .f32) (WXi WHi : Vec Ideal S512x512 .bf16) (Bi : Vec Ideal S1x512 .f32)
    (WXf WHf : Vec Ideal S512x512 .bf16) (Bf : Vec Ideal S1x512 .f32) (WXc WHc : Vec Ideal S512x512 .bf16) (Bc : Vec Ideal S1x512 .f32)
    (r : Fin 8192) (p q : Fin 512)
    (hX : ∀ k : Fin 512, X (ix2 p k) = x (ix2 r k)) (hH : ∀ k : Fin 512, H (ix2 p k) = h (ix2 r k)) (hC : C (ix2 p q) = c (ix2 r q))
    (hWXi : ∀ k : Fin 512, WXi (ix2 k q) = Wi (ix2 q (lo k))) (hWHi : ∀ k : Fin 512, WHi (ix2 k q) = Wi (ix2 q (hi k))) (hBi : Bi (ix2 (0 : Fin 1) q) = bi (ix1 q))
    (hWXf : ∀ k : Fin 512, WXf (ix2 k q) = Wf (ix2 q (lo k))) (hWHf : ∀ k : Fin 512, WHf (ix2 k q) = Wf (ix2 q (hi k))) (hBf : Bf (ix2 (0 : Fin 1) q) = bf (ix1 q))
    (hWXc : ∀ k : Fin 512, WXc (ix2 k q) = Wc (ix2 q (lo k))) (hWHc : ∀ k : Fin 512, WHc (ix2 k q) = Wc (ix2 q (hi k))) (hBc : Bc (ix2 (0 : Fin 1) q) = bc (ix1 q)) :
    k0_pay1 (k0_pay3 X) (k0_pay4 H) C (k0_pay5 X H WXi WHi Bi) (k0_pay6 X H WXf WHf Bf) WXc WHc Bc (ix2 p q)
      = cNext x h c Wi bi Wf bf Wc bc r q := by
  rw [pay_c]
  show Ideal.logistic (gateVec X H WXf WHf Bf (ix2 p q)) * C (ix2 p q)
      + Ideal.logistic (gateVec X H WXi WHi Bi (ix2 p q)) * Ideal.tanh (gateVec X H WXc WHc Bc (ix2 p q)) = _
  rw [pre_of_blocks x h Wf bf X H WXf WHf Bf r p q hX hH hWXf hWHf hBf,
    pre_of_blocks x h Wi bi X H WXi WHi Bi r p q hX hH hWXi hWHi hBi,
    pre_of_blocks x h Wc bc X H WXc WHc Bc r p q hX hH hWXc hWHc hBc, hC]
  rfl

open Cert.Lstm in
/-- The block stored to the hidden-state output, at (p, q), is the new hidden state at (r, q). -/
theorem hidden_of_blocks (x h c : SBH.Idx → EReal) (Wi : SW.Idx → EReal) (bi : SBias.Idx → EReal) (Wf : SW.Idx → EReal) (bf : SBias.Idx → EReal)
    (Wc : SW.Idx → EReal) (bc : SBias.Idx → EReal) (Wo : SW.Idx → EReal) (bo : SBias.Idx → EReal)
    (X H C : Vec Ideal S512x512 .f32) (WXi WHi : Vec Ideal S512x512 .bf16) (Bi : Vec Ideal S1x512 .f32)
    (WXf WHf : Vec Ideal S512x512 .bf16) (Bf : Vec Ideal S1x512 .f32) (WXc WHc : Vec Ideal S512x512 .bf16) (Bc : Vec Ideal S1x512 .f32)
    (WXo WHo : Vec Ideal S512x512 .bf16) (Bo : Vec Ideal S1x512 .f32)
    (r : Fin 8192) (p q : Fin 512)
    (hX : ∀ k : Fin 512, X (ix2 p k) = x (ix2 r k)) (hH : ∀ k : Fin 512, H (ix2 p k) = h (ix2 r k)) (hC : C (ix2 p q) = c (ix2 r q))
    (hWXi : ∀ k : Fin 512, WXi (ix2 k q) = Wi (ix2 q (lo k))) (hWHi : ∀ k : Fin 512, WHi (ix2 k q) = Wi (ix2 q (hi k))) (hBi : Bi (ix2 (0 : Fin 1) q) = bi (ix1 q))
    (hWXf : ∀ k : Fin 512, WXf (ix2 k q) = Wf (ix2 q (lo k))) (hWHf : ∀ k : Fin 512, WHf (ix2 k q) = Wf (ix2 q (hi k))) (hBf : Bf (ix2 (0 : Fin 1) q) = bf (ix1 q))
    (hWXc : ∀ k : Fin 512, WXc (ix2 k q) = Wc (ix2 q (lo k))) (hWHc : ∀ k : Fin 512, WHc (ix2 k q) = Wc (ix2 q (hi k))) (hBc : Bc (ix2 (0 : Fin 1) q) = bc (ix1 q))
    (hWXo : ∀ k : Fin 512, WXo (ix2 k q) = Wo (ix2 q (lo k))) (hWHo : ∀ k : Fin 512, WHo (ix2 k q) = Wo (ix2 q (hi k))) (hBo : Bo (ix2 (0 : Fin 1) q) = bo (ix1 q)) :
    k0_pay2 (k0_pay3 X) (k0_pay4 H) C (k0_pay5 X H WXi WHi Bi) (k0_pay6 X H WXf WHf Bf) (k0_pay7 X WXo) WHo Bo WXc WHc Bc (ix2 p q)
      = hNext x h c Wi bi Wf bf Wc bc Wo bo r q := by
  rw [pay_h]
  show Ideal.logistic (gateVec X H WXo WHo Bo (ix2 p q))
      * Ideal.tanh (Ideal.logistic (gateVec X H WXf WHf Bf (ix2 p q)) * C (ix2 p q)
        + Ideal.logistic (gateVec X H WXi WHi Bi (ix2 p q)) * Ideal.tanh (gateVec X H WXc WHc Bc (ix2 p q))) = _
  rw [pre_of_blocks x h Wo bo X H WXo WHo Bo r p q hX hH hWXo hWHo hBo,
    pre_of_blocks x h Wf bf X H WXf WHf Bf r p q hX hH hWXf hWHf hBf,
    pre_of_blocks x h Wi bi X H WXi WHi Bi r p q hX hH hWXi hWHi hBi,
    pre_of_blocks x h Wc bc X H WXc WHc Bc r p q hX hH hWXc hWHc hBc, hC]
  rfl

end Cert.KernelIdeal.Blk

end
-- ==== Proof.HostWindows.lean ====
/-
  What the kernel's weight and bias windows hold when the region is entered.

  Before the call the host cuts each gate's 512×1024 weight W into its input half W[:, 0:512] and its hidden half
  W[:, 512:1024], transposes each half (and changes its float format, the identity on extended reals), and lays each
  bias out as one row. So the input-half window holds, at (k, q), W(q, k); the hidden-half window W(q, 512 + k); the
  bias window, at (0, q), b(q).
-/
import proofs.«119501_j2052994367705_1_alg».proof.Proof.Gen.KernelIdeal.Frame
import proofs.«119501_j2052994367705_1_alg».proof.Proof.LstmSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Win

open Cert.KernelIdeal Cert.KernelIdeal.Gen Idealize.ShloMosaic Idealize.ShloMosaic.TcCoe Idealize.ShloMosaic.ValueIdx Idealize.SL.Sem
open Idealize.ShloMosaic.StableHlo Cert.Lstm

/-! ## The three layouts, read at an entry -/

/-- The transposed input half of a weight, at (k, q), is the weight at (q, k). -/
theorem inHalf_apply (W : (⟨S512x1024, .f32⟩ : BufTy).Contents (Elt Ideal)) (k q : Fin 512) :
    (truncf .bf16 (transpose S512x512 [1, 0] (extractStridedSlice S512x512 ![0, 0] W slices_S512x1024_S512x512_0_0) transposes_S512x512_S512x512_1_0) bitsLt_bf16_f32 : FVec Ideal S512x512 .bf16) (ix2 k q)
      = W (ix2 q (lo k)) := by
  rw [truncf_apply, transpose_ix2_apply]
  exact slice2_axis1_apply 0 W slices_S512x1024_S512x512_0_0 q k (lo k) (by show k.val = 0 + k.val; omega)

/-- The transposed hidden half of a weight, at (k, q), is the weight at (q, 512 + k). -/
theorem hidHalf_apply (W : (⟨S512x1024, .f32⟩ : BufTy).Contents (Elt Ideal)) (k q : Fin 512) :
    (truncf .bf16 (transpose S512x512 [1, 0] (extractStridedSlice S512x512 ![0, 512] W slices_S512x1024_S512x512_0_512) transposes_S512x512_S512x512_1_0) bitsLt_bf16_f32 : FVec Ideal S512x512 .bf16) (ix2 k q)
      = W (ix2 q (hi k)) := by
  rw [truncf_apply, transpose_ix2_apply]
  exact slice2_axis1_apply 512 W slices_S512x1024_S512x512_0_512 q k (hi k) rfl

/-- A bias laid out as one row, at (0, q), is the bias at q. -/
theorem biasRow_apply (b : (⟨S512, .f32⟩ : BufTy).Contents (Elt Ideal)) (q : Fin 512) :
    shapeCast S1x512 b shapeCasts_S512_S1x512 (ix2 (0 : Fin 1) q) = b (ix1 q) :=
  shapeCast_a_1a_apply b shapeCasts_S512_S1x512 0 q

variable (m : (ℓ : Loc nD τ sig) → Buf (Elt Ideal) ℓ)

/-! ## The twelve windows the host wrote, as the region finds them -/

theorem V_main_v2 (c : Dev nD) : (V m c main_v2 : S512x512.Idx → EReal)
    = (truncf .bf16 (transpose S512x512 [1, 0] (extractStridedSlice S512x512 ![0, 0] (m ((c : Thread nD τ).loc main_arg3)) slices_S512x1024_S512x512_0_0) transposes_S512x512_S512x512_1_0) bitsLt_bf16_f32 : FVec Ideal S512x512 .bf16) := by
  dsimp only [Gen.V, Gen.hostOps0]; after_results

theorem V_main_v2_apply (c : Dev nD) (k q : Fin 512) : V m c main_v2 (ix2 k q) = m ((c : Thread nD τ).loc main_arg3) (ix2 q (lo k)) :=
  (congrFun (V_main_v2 m c) (ix2 k q)).trans (inHalf_apply _ k q)

theorem V_main_v5 (c : Dev nD) : (V m c main_v5 : S512x512.Idx → EReal)
    = (truncf .bf16 (transpose S512x512 [1, 0] (extractStridedSlice S512x512 ![0, 512] (m ((c : Thread nD τ).loc main_arg3)) slices_S512x1024_S512x512_0_512) transposes_S512x512_S512x512_1_0) bitsLt_bf16_f32 : FVec Ideal S512x512 .bf16) := by
  dsimp only [Gen.V, Gen.hostOps0]; after_results

theorem V_main_v5_apply (c : Dev nD) (k q : Fin 512) : V m c main_v5 (ix2 k q) = m ((c : Thread nD τ).loc main_arg3) (ix2 q (hi k)) :=
  (congrFun (V_main_v5 m c) (ix2 k q)).trans (hidHalf_apply _ k q)

theorem V_main_v24 (c : Dev nD) : (V m c main_v24 : S1x512.Idx → EReal)
    = shapeCast S1x512 (m ((c : Thread nD τ).loc main_arg4)) shapeCasts_S512_S1x512 := by
  dsimp only [Gen.V, Gen.hostOps0]; after_results; rfl

theorem V_main_v24_apply (c : Dev nD) (q : Fin 512) : V m c main_v24 (ix2 (0 : Fin 1) q) = m ((c : Thread nD τ).loc main_arg4) (ix1 q) :=
  (congrFun (V_main_v24 m c) (ix2 (0 : Fin 1) q)).trans (biasRow_apply _ q)

theorem V_main_v8 (c : Dev nD) : (V m c main_v8 : S512x512.Idx → EReal)
    = (truncf .bf16 (transpose S512x512 [1, 0] (extractStridedSlice S512x512 ![0, 0] (m ((c : Thread nD τ).loc main_arg5)) slices_S512x1024_S512x512_0_0) transposes_S512x512_S512x512_1_0) bitsLt_bf16_f32 : FVec Ideal S512x512 .bf16) := by
  dsimp only [Gen.V, Gen.hostOps0]; after_results

theorem V_main_v8_apply (c : Dev nD) (k q : Fin 512) : V m c main_v8 (ix2 k q) = m ((c : Thread nD τ).loc main_arg5) (ix2 q (lo k)) :=
  (congrFun (V_main_v8 m c) (ix2 k q)).trans (inHalf_apply _ k q)

theorem V_main_v11 (c : Dev nD) : (V m c main_v11 : S512x512.Idx → EReal)
    = (truncf .bf16 (transpose S512x512 [1, 0] (extractStridedSlice S512x512 ![0, 512] (m ((c : Thread nD τ).loc main_arg5)) slices_S512x1024_S512x512_0_512) transposes_S512x512_S512x512_1_0) bitsLt_bf16_f32 : FVec Ideal S512x512 .bf16) := by
  dsimp only [Gen.V, Gen.hostOps0]; after_results

theorem V_main_v11_apply (c : Dev nD) (k q : Fin 512) : V m c main_v11 (ix2 k q) = m ((c : Thread nD τ).loc main_arg5) (ix2 q (hi k)) :=
  (congrFun (V_main_v11 m c) (ix2 k q)).trans (hidHalf_apply _ k q)

theorem V_main_v25 (c : Dev nD) : (V m c main_v25 : S1x512.Idx → EReal)
    = shapeCast S1x512 (m ((c : Thread nD τ).loc main_arg6)) shapeCasts_S512_S1x512 := by
  dsimp only [Gen.V, Gen.hostOps0]; after_results; rfl

theorem V_main_v25_apply (c : Dev nD) (q : Fin 512) : V m c main_v25 (ix2 (0 : Fin 1) q) = m ((c : Thread nD τ).loc main_arg6) (ix1 q) :=
  (congrFun (V_main_v25 m c) (ix2 (0 : Fin 1) q)).trans (biasRow_apply _ q)

theorem V_main_v14 (c : Dev nD) : (V m c main_v14 : S512x512.Idx → EReal)
    = (truncf .bf16 (transpose S512x512 [1, 0] (extractStridedSlice S512x512 ![0, 0] (m ((c : Thread nD τ).loc main_arg7)) slices_S512x1024_S512x512_0_0) transposes_S512x512_S512x512_1_0) bitsLt_bf16_f32 : FVec Ideal S512x512 .bf16) := by
  dsimp only [Gen.V, Gen.hostOps0]; after_results

theorem V_main_v14_apply (c : Dev nD) (k q : Fin 512) : V m c main_v14 (ix2 k q) = m ((c : Thread nD τ).loc main_arg7) (ix2 q (lo k)) :=
  (congrFun (V_main_v14 m c) (ix2 k q)).trans (inHalf_apply _ k q)

theorem V_main_v17 (c : Dev nD) : (V m c main_v17 : S512x512.Idx → EReal)
    = (truncf .bf16 (transpose S512x512 [1, 0] (extractStridedSlice S512x512 ![0, 512] (m ((c : Thread nD τ).loc main_arg7)) slices_S512x1024_S512x512_0_512) transposes_S512x512_S512x512_1_0) bitsLt_bf16_f32 : FVec Ideal S512x512 .bf16) := by
  dsimp only [Gen.V, Gen.hostOps0]; after_results

theorem V_main_v17_apply (c : Dev nD) (k q : Fin 512) : V m c main_v17 (ix2 k q) = m ((c : Thread nD τ).loc main_arg7) (ix2 q (hi k)) :=
  (congrFun (V_main_v17 m c) (ix2 k q)).trans (hidHalf_apply _ k q)

theorem V_main_v26 (c : Dev nD) : (V m c main_v26 : S1x512.Idx → EReal)
    = shapeCast S1x512 (m ((c : Thread nD τ).loc main_arg8)) shapeCasts_S512_S1x512 := by
  dsimp only [Gen.V, Gen.hostOps0]; after_results; rfl

theorem V_main_v26_apply (c : Dev nD) (q : Fin 512) : V m c main_v26 (ix2 (0 : Fin 1) q) = m ((c : Thread nD τ).loc main_arg8) (ix1 q) :=
  (congrFun (V_main_v26 m c) (ix2 (0 : Fin 1) q)).trans (biasRow_apply _ q)

theorem V_main_v20 (c : Dev nD) : (V m c main_v20 : S512x512.Idx → EReal)
    = (truncf .bf16 (transpose S512x512 [1, 0] (extractStridedSlice S512x512 ![0, 0] (m ((c : Thread nD τ).loc main_arg9)) slices_S512x1024_S512x512_0_0) transposes_S512x512_S512x512_1_0) bitsLt_bf16_f32 : FVec Ideal S512x512 .bf16) := by
  dsimp only [Gen.V, Gen.hostOps0]; after_results

theorem V_main_v20_apply (c : Dev nD) (k q : Fin 512) : V m c main_v20 (ix2 k q) = m ((c : Thread nD τ).loc main_arg9) (ix2 q (lo k)) :=
  (congrFun (V_main_v20 m c) (ix2 k q)).trans (inHalf_apply _ k q)

theorem V_main_v23 (c : Dev nD) : (V m c main_v23 : S512x512.Idx → EReal)
    = (truncf .bf16 (transpose S512x512 [1, 0] (extractStridedSlice S512x512 ![0, 512] (m ((c : Thread nD τ).loc main_arg9)) slices_S512x1024_S512x512_0_512) transposes_S512x512_S512x512_1_0) bitsLt_bf16_f32 : FVec Ideal S512x512 .bf16) := by
  dsimp only [Gen.V, Gen.hostOps0]; after_results

theorem V_main_v23_apply (c : Dev nD) (k q : Fin 512) : V m c main_v23 (ix2 k q) = m ((c : Thread nD τ).loc main_arg9) (ix2 q (hi k)) :=
  (congrFun (V_main_v23 m c) (ix2 k q)).trans (hidHalf_apply _ k q)

theorem V_main_v27 (c : Dev nD) : (V m c main_v27 : S1x512.Idx → EReal)
    = shapeCast S1x512 (m ((c : Thread nD τ).loc main_arg10)) shapeCasts_S512_S1x512 := by
  dsimp only [Gen.V, Gen.hostOps0]; after_results; rfl

theorem V_main_v27_apply (c : Dev nD) (q : Fin 512) : V m c main_v27 (ix2 (0 : Fin 1) q) = m ((c : Thread nD τ).loc main_arg10) (ix1 q) :=
  (congrFun (V_main_v27 m c) (ix2 (0 : Fin 1) q)).trans (biasRow_apply _ q)

end Cert.KernelIdeal.Win

end
-- ==== Proof.BlockReads.lean ====
/-
  The blocks the body loads at grid point t, read off the arrays.

  The grid has 16 points; point t works on batch rows 512·t … 512·t + 511. The windows of x, h and c (and of both
  results) move with t along the rows: their block at t, at (p, k), is the array at (512·t + p, k). The eight weight
  windows and four bias windows do not move: each block is the whole array the host prepared, so a weight block at
  (k, q) is W(q, k) (input half) or W(q, 512 + k) (hidden half), a bias block at (0, q) is b(q).
-/
import proofs.«119501_j2052994367705_1_alg».proof.Proof.Gen.KernelIdeal.Frame
import proofs.«119501_j2052994367705_1_alg».proof.Proof.HostWindows

noncomputable section

namespace Cert.KernelIdeal.Blk

open Cert.KernelIdeal Cert.KernelIdeal.Gen Idealize.ShloMosaic Idealize.ShloMosaic.TcCoe Idealize.ShloMosaic.ValueIdx Idealize.SL.Sem
open Cert.Lstm

/-- The moving windows' block index at point t is (t, 0): decided over the 16 points. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weight and bias windows' block index is (0, 0) at every point: decided over the 16 points. -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

variable (m : (ℓ : Loc nD τ sig) → Buf (Elt Ideal) ℓ)

/-! ## x, h, c: the block at t is rows 512·t … of the argument -/

theorem iblk0_apply (c : Dev nD) (t : Fin cfg0.N) (p k : Fin 512) (r : Fin 8192) (hr : r.val = t.val * 512 + p.val) :
    iblk m c 0 t (ix2 p k) = m ((c : Thread nD τ).loc main_arg0) (ix2 r k) := by
  show V m c main_arg0 (((cfg0.win 0).blk t).view.emb (ix2 p k)) = _
  rw [V_main_arg0]
  refine congrArg _ (funext fun a => Fin.ext ?_)
  obtain ⟨e00, e01, e10, e11, e20, e21, -⟩ := idx_rows t
  match a with
  | ⟨0, _⟩ => show win0_0.index t (0 : Fin 2) * 512 + 1 * p.val = r.val; omega
  | ⟨1, _⟩ => show win0_0.index t (1 : Fin 2) * 512 + 1 * k.val = k.val; omega

theorem iblk1_apply (c : Dev nD) (t : Fin cfg0.N) (p k : Fin 512) (r : Fin 8192) (hr : r.val = t.val * 512 + p.val) :
    iblk m c 1 t (ix2 p k) = m ((c : Thread nD τ).loc main_arg1) (ix2 r k) := by
  show V m c main_arg1 (((cfg0.win 1).blk t).view.emb (ix2 p k)) = _
  rw [V_main_arg1]
  refine congrArg _ (funext fun a => Fin.ext ?_)
  obtain ⟨e00, e01, e10, e11, e20, e21, -⟩ := idx_rows t
  match a with
  | ⟨0, _⟩ => show win0_1.index t (0 : Fin 2) * 512 + 1 * p.val = r.val; omega
  | ⟨1, _⟩ => show win0_1.index t (1 : Fin 2) * 512 + 1 * k.val = k.val; omega

theorem iblk2_apply (c : Dev nD) (t : Fin cfg0.N) (p k : Fin 512) (r : Fin 8192) (hr : r.val = t.val * 512 + p.val) :
    iblk m c 2 t (ix2 p k) = m ((c : Thread nD τ).loc main_arg2) (ix2 r k) := by
  show V m c main_arg2 (((cfg0.win 2).blk t).view.emb (ix2 p k)) = _
  rw [V_main_arg2]
  refine congrArg _ (funext fun a => Fin.ext ?_)
  obtain ⟨e00, e01, e10, e11, e20, e21, -⟩ := idx_rows t
  match a with
  | ⟨0, _⟩ => show win0_2.index t (0 : Fin 2) * 512 + 1 * p.val = r.val; omega
  | ⟨1, _⟩ => show win0_2.index t (1 : Fin 2) * 512 + 1 * k.val = k.val; omega

/-! ## The weights and biases: the block is the whole prepared array -/

theorem iblk3_apply (c : Dev nD) (t : Fin cfg0.N) (k q : Fin 512) :
    iblk m c 3 t (ix2 k q) = m ((c : Thread nD τ).loc main_arg3) (ix2 q (lo k)) := by
  show V m c main_v2 (((cfg0.win 3).blk t).view.emb (ix2 k q)) = _
  have e : ((cfg0.win 3).blk t).view.emb (ix2 k q) = ix2 k q := funext fun a => Fin.ext (by
    obtain ⟨⟨e0, e1⟩, -, -, -, -, -, -, -, -, -, -, -⟩ := idx_fixed t
    match a with
    | ⟨0, _⟩ => show win0_3.index t (0 : Fin 2) * 512 + 1 * k.val = k.val; omega
    | ⟨1, _⟩ => show win0_3.index t (1 : Fin 2) * 512 + 1 * q.val = q.val; omega)
  exact (congrArg (V m c main_v2) e).trans (Win.V_main_v2_apply m c k q)

theorem iblk4_apply (c : Dev nD) (t : Fin cfg0.N) (k q : Fin 512) :
    iblk m c 4 t (ix2 k q) = m ((c : Thread nD τ).loc main_arg3) (ix2 q (hi k)) := by
  show V m c main_v5 (((cfg0.win 4).blk t).view.emb (ix2 k q)) = _
  have e : ((cfg0.win 4).blk t).view.emb (ix2 k q) = ix2 k q := funext fun a => Fin.ext (by
    obtain ⟨-, ⟨e0, e1⟩, -, -, -, -, -, -, -, -, -, -⟩ := idx_fixed t
    match a with
    | ⟨0, _⟩ => show win0_4.index t (0 : Fin 2) * 512 + 1 * k.val = k.val; omega
    | ⟨1, _⟩ => show win0_4.index t (1 : Fin 2) * 512 + 1 * q.val = q.val; omega)
  exact (congrArg (V m c main_v5) e).trans (Win.V_main_v5_apply m c k q)

theorem iblk5_apply (c : Dev nD) (t : Fin cfg0.N) (q : Fin 512) :
    iblk m c 5 t (ix2 (0 : Fin 1) q) = m ((c : Thread nD τ).loc main_arg4) (ix1 q) := by
  show V m c main_v24 (((cfg0.win 5).blk t).view.emb (ix2 (0 : Fin 1) q)) = _
  have e : ((cfg0.win 5).blk t).view.emb (ix2 (0 : Fin 1) q) = ix2 (0 : Fin 1) q := funext fun a => Fin.ext (by
    obtain ⟨-, -, ⟨e0, e1⟩, -, -, -, -, -, -, -, -, -⟩ := idx_fixed t
    match a with
    | ⟨0, _⟩ => show win0_5.index t (0 : Fin 2) * 1 + 1 * 0 = 0; omega
    | ⟨1, _⟩ => show win0_5.index t (1 : Fin 2) * 512 + 1 * q.val = q.val; omega)
  exact (congrArg (V m c main_v24) e).trans (Win.V_main_v24_apply m c q)

theorem iblk6_apply (c : Dev nD) (t : Fin cfg0.N) (k q : Fin 512) :
    iblk m c 6 t (ix2 k q) = m ((c : Thread nD τ).loc main_arg5) (ix2 q (lo k)) := by
  show V m c main_v8 (((cfg0.win 6).blk t).view.emb (ix2 k q)) = _
  have e : ((cfg0.win 6).blk t).view.emb (ix2 k q) = ix2 k q := funext fun a => Fin.ext (by
    obtain ⟨-, -, -, ⟨e0, e1⟩, -, -, -, -, -, -, -, -⟩ := idx_fixed t
    match a with
    | ⟨0, _⟩ => show win0_6.index t (0 : Fin 2) * 512 + 1 * k.val = k.val; omega
    | ⟨1, _⟩ => show win0_6.index t (1 : Fin 2) * 512 + 1 * q.val = q.val; omega)
  exact (congrArg (V m c main_v8) e).trans (Win.V_main_v8_apply m c k q)

theorem iblk7_apply (c : Dev nD) (t : Fin cfg0.N) (k q : Fin 512) :
    iblk m c 7 t (ix2 k q) = m ((c : Thread nD τ).loc main_arg5) (ix2 q (hi k)) := by
  show V m c main_v11 (((cfg0.win 7).blk t).view.emb (ix2 k q)) = _
  have e : ((cfg0.win 7).blk t).view.emb (ix2 k q) = ix2 k q := funext fun a => Fin.ext (by
    obtain ⟨-, -, -, -, ⟨e0, e1⟩, -, -, -, -, -, -, -⟩ := idx_fixed t
    match a with
    | ⟨0, _⟩ => show win0_7.index t (0 : Fin 2) * 512 + 1 * k.val = k.val; omega
    | ⟨1, _⟩ => show win0_7.index t (1 : Fin 2) * 512 + 1 * q.val = q.val; omega)
  exact (congrArg (V m c main_v11) e).trans (Win.V_main_v11_apply m c k q)

theorem iblk8_apply (c : Dev nD) (t : Fin cfg0.N) (q : Fin 512) :
    iblk m c 8 t (ix2 (0 : Fin 1) q) = m ((c : Thread nD τ).loc main_arg6) (ix1 q) := by
  show V m c main_v25 (((cfg0.win 8).blk t).view.emb (ix2 (0 : Fin 1) q)) = _
  have e : ((cfg0.win 8).blk t).view.emb (ix2 (0 : Fin 1) q) = ix2 (0 : Fin 1) q := funext fun a => Fin.ext (by
    obtain ⟨-, -, -, -, -, ⟨e0, e1⟩, -, -, -, -, -, -⟩ := idx_fixed t
    match a with
    | ⟨0, _⟩ => show win0_8.index t (0 : Fin 2) * 1 + 1 * 0 = 0; omega
    | ⟨1, _⟩ => show win0_8.index t (1 : Fin 2) * 512 + 1 * q.val = q.val; omega)
  exact (congrArg (V m c main_v25) e).trans (Win.V_main_v25_apply m c q)

theorem iblk9_apply (c : Dev nD) (t : Fin cfg0.N) (k q : Fin 512) :
    iblk m c 9 t (ix2 k q) = m ((c : Thread nD τ).loc main_arg7) (ix2 q (lo k)) := by
  show V m c main_v14 (((cfg0.win 9).blk t).view.emb (ix2 k q)) = _
  have e : ((cfg0.win 9).blk t).view.emb (ix2 k q) = ix2 k q := funext fun a => Fin.ext (by
    obtain ⟨-, -, -, -, -, -, ⟨e0, e1⟩, -, -, -, -, -⟩ := idx_fixed t
    match a with
    | ⟨0, _⟩ => show win0_9.index t (0 : Fin 2) * 512 + 1 * k.val = k.val; omega
    | ⟨1, _⟩ => show win0_9.index t (1 : Fin 2) * 512 + 1 * q.val = q.val; omega)
  exact (congrArg (V m c main_v14) e).trans (Win.V_main_v14_apply m c k q)

theorem iblk10_apply (c : Dev nD) (t : Fin cfg0.N) (k q : Fin 512) :
    iblk m c 10 t (ix2 k q) = m ((c : Thread nD τ).loc main_arg7) (ix2 q (hi k)) := by
  show V m c main_v17 (((cfg0.win 10).blk t).view.emb (ix2 k q)) = _
  have e : ((cfg0.win 10).blk t).view.emb (ix2 k q) = ix2 k q := funext fun a => Fin.ext (by
    obtain ⟨-, -, -, -, -, -, -, ⟨e0, e1⟩, -, -, -, -⟩ := idx_fixed t
    match a with
    | ⟨0, _⟩ => show win0_10.index t (0 : Fin 2) * 512 + 1 * k.val = k.val; omega
    | ⟨1, _⟩ => show win0_10.index t (1 : Fin 2) * 512 + 1 * q.val = q.val; omega)
  exact (congrArg (V m c main_v17) e).trans (Win.V_main_v17_apply m c k q)

theorem iblk11_apply (c : Dev nD) (t : Fin cfg0.N) (q : Fin 512) :
    iblk m c 11 t (ix2 (0 : Fin 1) q) = m ((c : Thread nD τ).loc main_arg8) (ix1 q) := by
  show V m c main_v26 (((cfg0.win 11).blk t).view.emb (ix2 (0 : Fin 1) q)) = _
  have e : ((cfg0.win 11).blk t).view.emb (ix2 (0 : Fin 1) q) = ix2 (0 : Fin 1) q := funext fun a => Fin.ext (by
    obtain ⟨-, -, -, -, -, -, -, -, ⟨e0, e1⟩, -, -, -⟩ := idx_fixed t
    match a with
    | ⟨0, _⟩ => show win0_11.index t (0 : Fin 2) * 1 + 1 * 0 = 0; omega
    | ⟨1, _⟩ => show win0_11.index t (1 : Fin 2) * 512 + 1 * q.val = q.val; omega)
  exact (congrArg (V m c main_v26) e).trans (Win.V_main_v26_apply m c q)

theorem iblk12_apply (c : Dev nD) (t : Fin cfg0.N) (k q : Fin 512) :
    iblk m c 12 t (ix2 k q) = m ((c : Thread nD τ).loc main_arg9) (ix2 q (lo k)) := by
  show V m c main_v20 (((cfg0.win 12).blk t).view.emb (ix2 k q)) = _
  have e : ((cfg0.win 12).blk t).view.emb (ix2 k q) = ix2 k q := funext fun a => Fin.ext (by
    obtain ⟨-, -, -, -, -, -, -, -, -, ⟨e0, e1⟩, -, -⟩ := idx_fixed t
    match a with
    | ⟨0, _⟩ => show win0_12.index t (0 : Fin 2) * 512 + 1 * k.val = k.val; omega
    | ⟨1, _⟩ => show win0_12.index t (1 : Fin 2) * 512 + 1 * q.val = q.val; omega)
  exact (congrArg (V m c main_v20) e).trans (Win.V_main_v20_apply m c k q)

theorem iblk13_apply (c : Dev nD) (t : Fin cfg0.N) (k q : Fin 512) :
    iblk m c 13 t (ix2 k q) = m ((c : Thread nD τ).loc main_arg9) (ix2 q (hi k)) := by
  show V m c main_v23 (((cfg0.win 13).blk t).view.emb (ix2 k q)) = _
  have e : ((cfg0.win 13).blk t).view.emb (ix2 k q) = ix2 k q := funext fun a => Fin.ext (by
    obtain ⟨-, -, -, -, -, -, -, -, -, -, ⟨e0, e1⟩, -⟩ := idx_fixed t
    match a with
    | ⟨0, _⟩ => show win0_13.index t (0 : Fin 2) * 512 + 1 * k.val = k.val; omega
    | ⟨1, _⟩ => show win0_13.index t (1 : Fin 2) * 512 + 1 * q.val = q.val; omega)
  exact (congrArg (V m c main_v23) e).trans (Win.V_main_v23_apply m c k q)

theorem iblk14_apply (c : Dev nD) (t : Fin cfg0.N) (q : Fin 512) :
    iblk m c 14 t (ix2 (0 : Fin 1) q) = m ((c : Thread nD τ).loc main_arg10) (ix1 q) := by
  show V m c main_v27 (((cfg0.win 14).blk t).view.emb (ix2 (0 : Fin 1) q)) = _
  have e : ((cfg0.win 14).blk t).view.emb (ix2 (0 : Fin 1) q) = ix2 (0 : Fin 1) q := funext fun a => Fin.ext (by
    obtain ⟨-, -, -, -, -, -, -, -, -, -, -, ⟨e0, e1⟩⟩ := idx_fixed t
    match a with
    | ⟨0, _⟩ => show win0_14.index t (0 : Fin 2) * 1 + 1 * 0 = 0; omega
    | ⟨1, _⟩ => show win0_14.index t (1 : Fin 2) * 512 + 1 * q.val = q.val; omega)
  exact (congrArg (V m c main_v27) e).trans (Win.V_main_v27_apply m c q)

end Cert.KernelIdeal.Blk

end
-- ==== Proof.KernelValue.lean ====
/-
  The kernel's two result arrays after the run, as whole arrays: the new hidden state and the new cell state of the
  specification.

  Grid point t writes back, to each result, block t: rows 512·t … 512·t + 511. Entry (p, q) of what it writes is the
  cell step at batch row 512·t + p and hidden unit q, because the blocks it loaded hold exactly the entries that row
  and unit need. The sixteen blocks tile the 8192 rows (row r lies in block r / 512), so each result array ends
  holding the specification's array.
-/
import proofs.«119501_j2052994367705_1_alg».proof.Proof.Gen.KernelIdeal.Value
import proofs.«119501_j2052994367705_1_alg».proof.Proof.BlockGate
import proofs.«119501_j2052994367705_1_alg».proof.Proof.BlockReads

noncomputable section

namespace Cert.KernelIdeal.RefValue

open Cert.KernelIdeal Cert.KernelIdeal.Gen Idealize.ShloMosaic Idealize.ShloMosaic.TcCoe Idealize.ShloMosaic.ValueIdx Idealize.SL.Sem
open Idealize.ShloMosaic.Pipeline (Dat)
open Cert.Lstm Cert.KernelIdeal.Blk

variable (m : (ℓ : Loc nD τ sig) → Buf (Elt Ideal) ℓ) (ρ : Dev nD → PrngReg)

theorem zero_offsets : (![0, 0] : Fin 2 → Nat) = fun _ => 0 := funext fun a => by fin_cases a <;> rfl

/-- The batch row that row p of block t is. -/
def rowOf (t : Fin cfg0.N) (p : Fin 512) : Fin 8192 :=
  ⟨t.val * 512 + p.val, by have ht : t.val < 16 := lt_of_lt_of_eq t.isLt N_0; have hp := p.isLt; omega⟩

theorem rowOf_val (t : Fin cfg0.N) (p : Fin 512) : (rowOf t p).val = t.val * 512 + p.val := rfl

/-! ## What point t writes back -/

/-- Point t writes back block t of the new cell state. -/
theorem flushed_c (c : Dev nD) (t : Fin cfg0.N) :
    (dats m 0 c).flushed 16 t = ((cfg0.win 16).blk t).view.read (Elt Ideal) (Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed16]
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = _
  unfold out0_16
  rw [View.canon_unit_zero zero_offsets]
  simp only [View.ld_unit_zero (S := S512x512) zero_offsets, View.ld_unit_zero (S := S1x512) zero_offsets]
  funext j
  obtain ⟨p, q, rfl⟩ : ∃ (p : Fin 512) (q : Fin 512), j = ix2 p q := ⟨j 0, j 1, eq_ix2 j⟩
  have e : ((cfg0.win 16).blk t).view.emb (ix2 p q) = ix2 (rowOf t p) q := funext fun a => Fin.ext (by
    obtain ⟨-, -, -, -, -, -, -, -, e0, e1⟩ := idx_rows t
    match a with
    | ⟨0, _⟩ => show win0_16.index t (0 : Fin 2) * 512 + 1 * p.val = t.val * 512 + p.val; omega
    | ⟨1, _⟩ => show win0_16.index t (1 : Fin 2) * 512 + 1 * q.val = q.val; omega)
  refine (cell_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (rowOf t p) p q
    (fun k => iblk0_apply m c t p k (rowOf t p) rfl) (fun k => iblk1_apply m c t p k (rowOf t p) rfl) (iblk2_apply m c t p q (rowOf t p) rfl)
    (fun k => iblk3_apply m c t k q) (fun k => iblk4_apply m c t k q) (iblk5_apply m c t q)
    (fun k => iblk6_apply m c t k q) (fun k => iblk7_apply m c t k q) (iblk8_apply m c t q)
    (fun k => iblk9_apply m c t k q) (fun k => iblk10_apply m c t k q) (iblk11_apply m c t q)).trans ?_
  show _ = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 16).blk t).view.emb (ix2 p q))
  rw [e]
  rfl

/-- Point t writes back block t of the new hidden state. -/
theorem flushed_h (c : Dev nD) (t : Fin cfg0.N) :
    (dats m 0 c).flushed 15 t = ((cfg0.win 15).blk t).view.read (Elt Ideal) (Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed15]
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) = _
  unfold out0_15
  rw [View.canon_unit_zero zero_offsets]
  simp only [View.ld_unit_zero (S := S512x512) zero_offsets, View.ld_unit_zero (S := S1x512) zero_offsets]
  funext j
  obtain ⟨p, q, rfl⟩ : ∃ (p : Fin 512) (q : Fin 512), j = ix2 p q := ⟨j 0, j 1, eq_ix2 j⟩
  have e : ((cfg0.win 15).blk t).view.emb (ix2 p q) = ix2 (rowOf t p) q := funext fun a => Fin.ext (by
    obtain ⟨-, -, -, -, -, -, e0, e1, -⟩ := idx_rows t
    match a with
    | ⟨0, _⟩ => show win0_15.index t (0 : Fin 2) * 512 + 1 * p.val = t.val * 512 + p.val; omega
    | ⟨1, _⟩ => show win0_15.index t (1 : Fin 2) * 512 + 1 * q.val = q.val; omega)
  refine (hidden_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (rowOf t p) p q
    (fun k => iblk0_apply m c t p k (rowOf t p) rfl) (fun k => iblk1_apply m c t p k (rowOf t p) rfl) (iblk2_apply m c t p q (rowOf t p) rfl)
    (fun k => iblk3_apply m c t k q) (fun k => iblk4_apply m c t k q) (iblk5_apply m c t q)
    (fun k => iblk6_apply m c t k q) (fun k => iblk7_apply m c t k q) (iblk8_apply m c t q)
    (fun k => iblk9_apply m c t k q) (fun k => iblk10_apply m c t k q) (iblk11_apply m c t q)
    (fun k => iblk12_apply m c t k q) (fun k => iblk13_apply m c t k q) (iblk14_apply m c t q)).trans ?_
  show _ = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 15).blk t).view.emb (ix2 p q))
  rw [e]
  rfl

/-! ## The sixteen blocks tile the rows -/

theorem mem_blk_h (t : Fin cfg0.N) (i : S8192x512.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v28_0).slice (win0_15.rect t)).set ↔ _
  rw [View.set_slice_whole, Rect.mem_set_unit]
  exact Iff.rfl

theorem mem_blk_c (t : Fin cfg0.N) (i : S8192x512.Idx) :
    i ∈ ((cfg0.win 16).blk t).view.set ↔ ∀ a : Fin 2, win0_16.index t a * S512x512.size a ≤ (i a).val ∧ (i a).val < win0_16.index t a * S512x512.size a + S512x512.size a := by
  show i ∈ ((View.whole main_v28_1).slice (win0_16.rect t)).set ↔ _
  rw [View.set_slice_whole, Rect.mem_set_unit]
  exact Iff.rfl

/-- The point whose block holds batch row r: r / 512. -/
def pointOf (i : S8192x512.Idx) : Fin cfg0.N :=
  ⟨(i 0).val / 512, by have h : (i 0).val < 8192 := (i 0).isLt; rw [show cfg0.N = 16 from N_0]; omega⟩

theorem pointOf_val (i : S8192x512.Idx) : (pointOf i).val = (i 0).val / 512 := rfl

theorem cover_h (i : S8192x512.Idx) : ∃ t : Fin cfg0.N, (cfg0.win 15).flush t = true ∧ i ∈ ((cfg0.win 15).blk t).view.set := by
  have hi0 : (i 0).val < 8192 := (i 0).isLt
  have hi1 : (i 1).val < 512 := (i 1).isLt
  refine ⟨pointOf i, flush0_15 _, ?_⟩
  rw [mem_blk_h]
  obtain ⟨-, -, -, -, -, -, e0, e1, -⟩ := idx_rows (pointOf i)
  have hv := pointOf_val i
  intro a
  match a with
  | ⟨0, _⟩ => show win0_15.index (pointOf i) (0 : Fin 2) * 512 ≤ (i 0).val ∧ (i 0).val < win0_15.index (pointOf i) (0 : Fin 2) * 512 + 512; omega
  | ⟨1, _⟩ => show win0_15.index (pointOf i) (1 : Fin 2) * 512 ≤ (i 1).val ∧ (i 1).val < win0_15.index (pointOf i) (1 : Fin 2) * 512 + 512; omega

theorem cover_c (i : S8192x512.Idx) : ∃ t : Fin cfg0.N, (cfg0.win 16).flush t = true ∧ i ∈ ((cfg0.win 16).blk t).view.set := by
  have hi0 : (i 0).val < 8192 := (i 0).isLt
  have hi1 : (i 1).val < 512 := (i 1).isLt
  refine ⟨pointOf i, flush0_16 _, ?_⟩
  rw [mem_blk_c]
  obtain ⟨-, -, -, -, -, -, -, -, e0, e1⟩ := idx_rows (pointOf i)
  have hv := pointOf_val i
  intro a
  match a with
  | ⟨0, _⟩ => show win0_16.index (pointOf i) (0 : Fin 2) * 512 ≤ (i 0).val ∧ (i 0).val < win0_16.index (pointOf i) (0 : Fin 2) * 512 + 512; omega
  | ⟨1, _⟩ => show win0_16.index (pointOf i) (1 : Fin 2) * 512 ≤ (i 1).val ∧ (i 1).val < win0_16.index (pointOf i) (1 : Fin 2) * 512 + 512; omega

/-! ## The arrays after the run -/

/-- The hidden-state result ends holding the specification's new hidden state. -/
theorem final_h (c : Dev nD) : (dats m 0 c).arrAt 15 cfg0.N = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 15 (Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed_h m c t) cover_h

/-- The cell-state result ends holding the specification's new cell state. -/
theorem final_c (c : Dev nD) : (dats m 0 c).arrAt 16 cfg0.N = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 16 (Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_c m c t) cover_c

/-- The kernel's run: every weakly fair execution terminates without a fault, with the two results at the
    specification's arrays of the arguments and the arguments unchanged. -/
theorem run : θ_run defs (onTc (τ := τ) (main (F := Ideal))) ⟨m, fun _ => 0, ρ⟩ fun r => ∀ c : Dev nD,
      r.2.mem ((c : Thread nD τ).loc main_v28_0) = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v28_1) = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_h m c), (h c).2.1.trans (final_c m c), (h c).2.2⟩)
    (Value.run_blocks m ρ)

end Cert.KernelIdeal.RefValue

end
-- ==== Proof.RefIsSpec.lean ====
/-
  The reference computation of one LSTM cell step is the specification, entry by entry.

  The reference joins each input row x(r,·) with the hidden row h(r,·) into one row of 1024 entries, contracts it
  with row j of each gate's 512×1024 weight over all 1024 positions, and adds the bias:
      Σ_{k<1024} [x(r,·), h(r,·)](k)·W(j,k) + b(j).
  Splitting the sum at 512 (`sum_halves`) and reading the joined row on each half gives
      Σ_{k<512} x(r,k)·W(j,k) + Σ_{k<512} h(r,k)·W(j,512+k) + b(j) = pre W b (r, j).
  The reference writes the logistic function as 1/(1 + exp(-y)) with the constant 1 given by its bit pattern; on
  extended reals that quotient is the logistic function by definition once the bit pattern is read as 1. With the
  four gates so identified, the new cell state σ(f)·c + σ(i)·tanh(g) and the new hidden state σ(o)·tanh(c') are
  the specification's `cNext` and `hNext` at every (r, j). Only the splitting of a finite sum in a commutative
  monoid is used about addition, so no entry has to be finite.
-/
import proofs.«119501_j2052994367705_1_alg».proof.Proof.Gen.ReferenceIdeal.Read
import proofs.«119501_j2052994367705_1_alg».proof.Proof.LstmSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Cert.Lstm

/-! ## The joined row

The reference joins each input row with the matching hidden row into one row of 1024 entries. Position `k < 512`
of the joined row is the input's entry `k`; position `512 + k` is the hidden state's entry `k`. -/

/-- The first half of the joined row is the input row. -/
theorem joined_lo (x0 x1 : (⟨S8192x512, .f32⟩ : BufTy).Contents (Elt Ideal)) (r : Fin 8192) (k : Fin 512) :
    val_main_v0 (F := Ideal) x0 x1 (ix2 r (lo k)) = x0 (ix2 r k) := by
  unfold val_main_v0
  exact concatenate_pair_apply_left (1 : Fin S8192x1024.rank) x0 x1 concatenates_S8192x512_S8192x512_S8192x1024_d1
    (ix2 r (lo k)) rfl (ix2 r k) (fun b => match b with
      | ⟨0, _⟩ => rfl
      | ⟨1, _⟩ => rfl)

/-- The second half of the joined row is the hidden row. -/
theorem joined_hi (x0 x1 : (⟨S8192x512, .f32⟩ : BufTy).Contents (Elt Ideal)) (r : Fin 8192) (k : Fin 512) :
    val_main_v0 (F := Ideal) x0 x1 (ix2 r (hi k)) = x1 (ix2 r k) := by
  unfold val_main_v0
  exact concatenate_pair_apply_right (1 : Fin S8192x1024.rank) x0 x1 concatenates_S8192x512_S8192x512_S8192x1024_d1
    (ix2 r (hi k)) rfl rfl (ix2 r k)
    (fun b hb => match b, hb with
      | ⟨0, _⟩, _ => rfl
      | ⟨1, _⟩, hb => absurd rfl hb)
    (by show k.val + 512 = 512 + k.val; omega)

/-! ## One gate's pre-activation

The reference contracts the joined row with a row of the transposed weight over all 1024 positions and adds the
bias. Splitting the sum at 512 gives the input half against the weight's first 512 columns and the hidden half
against its last 512 columns. -/

/-- The contraction of the joined row with a weight row, split at 512 into its input and hidden halves. -/
theorem joined_contraction (x0 x1 : (⟨S8192x512, .f32⟩ : BufTy).Contents (Elt Ideal))
    (W : (⟨S512x1024, .f32⟩ : BufTy).Contents (Elt Ideal)) (i : S8192x512.Idx) :
    (∑ k : Fin 1024, val_main_v0 (F := Ideal) x0 x1 (lidx_main_v2 i k) * W (idx_main_v1 (ridx_main_v2 i k)) : EReal)
      = (∑ k : Fin 512, x0 (ix2 (i 0) k) * W (ix2 (i 1) (lo k))) + ∑ k : Fin 512, x1 (ix2 (i 0) k) * W (ix2 (i 1) (hi k)) := by
  rw [sum_halves]
  have hl : ∀ k : Fin 1024, lidx_main_v2 i k = ix2 (i 0) k := fun k =>
    funext fun a => Fin.ext (by match a with | ⟨0, _⟩ => rfl | ⟨1, _⟩ => rfl)
  have hr : ∀ k : Fin 1024, idx_main_v1 (ridx_main_v2 i k) = ix2 (i 1) k := fun k =>
    funext fun a => Fin.ext (by match a with | ⟨0, _⟩ => rfl | ⟨1, _⟩ => rfl)
  congr 1
  · refine Finset.sum_congr rfl fun k _ => ?_
    rw [hl, hr]
    exact congrArg₂ (· * ·) (joined_lo x0 x1 (i 0) k) rfl
  · refine Finset.sum_congr rfl fun k _ => ?_
    rw [hl, hr]
    exact congrArg₂ (· * ·) (joined_hi x0 x1 (i 0) k) rfl

/-- The bias, broadcast over the batch, read at `(r, j)` is its entry `j`. -/
theorem bias_index (i : S8192x512.Idx) : idx_main_v3 (idx_main_v4 i) = ix1 (i 1) :=
  funext fun a => Fin.ext (by match a with | ⟨0, _⟩ => rfl)

/-- The input gate's pre-activation. -/
theorem gate_i (x0 x1 : (⟨S8192x512, .f32⟩ : BufTy).Contents (Elt Ideal)) (x3 : (⟨S512x1024, .f32⟩ : BufTy).Contents (Elt Ideal))
    (x4 : (⟨S512, .f32⟩ : BufTy).Contents (Elt Ideal)) (i : S8192x512.Idx) :
    val_main_v5 (F := Ideal) x0 x1 x3 x4 i = pre x0 x1 x3 x4 (i 0) (i 1) := by
  rw [val_main_v5_apply, val_main_v2_apply, val_main_v4_apply, val_main_v3_apply]
  simp only [val_main_v1_apply]
  exact congrArg₂ (· + ·) (joined_contraction x0 x1 x3 i) (congrArg x4 (bias_index i))

/-- The forget gate's pre-activation. -/
theorem gate_f (x0 x1 : (⟨S8192x512, .f32⟩ : BufTy).Contents (Elt Ideal)) (x5 : (⟨S512x1024, .f32⟩ : BufTy).Contents (Elt Ideal))
    (x6 : (⟨S512, .f32⟩ : BufTy).Contents (Elt Ideal)) (i : S8192x512.Idx) :
    val_main_v16 (F := Ideal) x0 x1 x5 x6 i = pre x0 x1 x5 x6 (i 0) (i 1) := by
  rw [val_main_v16_apply, val_main_v13_apply, val_main_v15_apply, val_main_v14_apply]
  simp only [val_main_v12_apply]
  exact congrArg₂ (· + ·) (joined_contraction x0 x1 x5 i) (congrArg x6 (bias_index i))

/-- The output gate's pre-activation. -/
theorem gate_o (x0 x1 : (⟨S8192x512, .f32⟩ : BufTy).Contents (Elt Ideal)) (x9 : (⟨S512x1024, .f32⟩ : BufTy).Contents (Elt Ideal))
    (x10 : (⟨S512, .f32⟩ : BufTy).Contents (Elt Ideal)) (i : S8192x512.Idx) :
    val_main_v27 (F := Ideal) x0 x1 x9 x10 i = pre x0 x1 x9 x10 (i 0) (i 1) := by
  rw [val_main_v27_apply, val_main_v24_apply, val_main_v26_apply, val_main_v25_apply]
  simp only [val_main_v23_apply]
  exact congrArg₂ (· + ·) (joined_contraction x0 x1 x9 i) (congrArg x10 (bias_index i))

/-- The candidate's pre-activation. -/
theorem gate_c (x0 x1 : (⟨S8192x512, .f32⟩ : BufTy).Contents (Elt Ideal)) (x7 : (⟨S512x1024, .f32⟩ : BufTy).Contents (Elt Ideal))
    (x8 : (⟨S512, .f32⟩ : BufTy).Contents (Elt Ideal)) (i : S8192x512.Idx) :
    val_main_v38 (F := Ideal) x0 x1 x7 x8 i = pre x0 x1 x7 x8 (i 0) (i 1) := by
  rw [val_main_v38_apply, val_main_v35_apply, val_main_v37_apply, val_main_v36_apply]
  simp only [val_main_v34_apply]
  exact congrArg₂ (· + ·) (joined_contraction x0 x1 x7 i) (congrArg x8 (bias_index i))

/-! ## The logistic function and the hyperbolic tangent

The reference spells the logistic function as `1 / (1 + exp (-y))` with the constant `1` given by its bit pattern. -/

/-- The bit pattern `0x3F800000` is the number one. -/
theorem bits_one : (FloatOps.ofBits (F := Ideal) .f32 0x3F800000#32 : Ideal .f32) = 1 := by
  rw [Ideal.ofBits_def]
  simp [Ideal.ofBits, Ideal.ieee, -EReal.coe_mul]
  norm_num

/-- `1 / (1 + exp (-y))` is the logistic function of `y`. -/
theorem quotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = Ideal.logistic y := by
  rw [bits_one]
  rfl

/-- The input gate is the logistic function of its pre-activation. -/
theorem sigmoid_i (x0 x1 : (⟨S8192x512, .f32⟩ : BufTy).Contents (Elt Ideal)) (x3 : (⟨S512x1024, .f32⟩ : BufTy).Contents (Elt Ideal))
    (x4 : (⟨S512, .f32⟩ : BufTy).Contents (Elt Ideal)) (i : S8192x512.Idx) :
    val_main_v11 (F := Ideal) x0 x1 x3 x4 i = Ideal.logistic (pre x0 x1 x3 x4 (i 0) (i 1)) := by
  rw [val_main_v11_apply, val_main_v10_apply, val_main_cst_0_apply, val_main_v9_apply, val_main_v8_apply,
    val_main_cst_apply, val_main_v7_apply, val_main_v6_apply, gate_i]
  exact quotient_eq_logistic _

/-- The forget gate is the logistic function of its pre-activation. -/
theorem sigmoid_f (x0 x1 : (⟨S8192x512, .f32⟩ : BufTy).Contents (Elt Ideal)) (x5 : (⟨S512x1024, .f32⟩ : BufTy).Contents (Elt Ideal))
    (x6 : (⟨S512, .f32⟩ : BufTy).Contents (Elt Ideal)) (i : S8192x512.Idx) :
    val_main_v22 (F := Ideal) x0 x1 x5 x6 i = Ideal.logistic (pre x0 x1 x5 x6 (i 0) (i 1)) := by
  rw [val_main_v22_apply, val_main_v21_apply, val_main_cst_2_apply, val_main_v20_apply, val_main_v19_apply,
    val_main_cst_1_apply, val_main_v18_apply, val_main_v17_apply, gate_f]
  exact quotient_eq_logistic _

/-- The output gate is the logistic function of its pre-activation. -/
theorem sigmoid_o (x0 x1 : (⟨S8192x512, .f32⟩ : BufTy).Contents (Elt Ideal)) (x9 : (⟨S512x1024, .f32⟩ : BufTy).Contents (Elt Ideal))
    (x10 : (⟨S512, .f32⟩ : BufTy).Contents (Elt Ideal)) (i : S8192x512.Idx) :
    val_main_v33 (F := Ideal) x0 x1 x9 x10 i = Ideal.logistic (pre x0 x1 x9 x10 (i 0) (i 1)) := by
  rw [val_main_v33_apply, val_main_v32_apply, val_main_cst_4_apply, val_main_v31_apply, val_main_v30_apply,
    val_main_cst_3_apply, val_main_v29_apply, val_main_v28_apply, gate_o]
  exact quotient_eq_logistic _

/-- The candidate is the hyperbolic tangent of its pre-activation. -/
theorem tanh_c (x0 x1 : (⟨S8192x512, .f32⟩ : BufTy).Contents (Elt Ideal)) (x7 : (⟨S512x1024, .f32⟩ : BufTy).Contents (Elt Ideal))
    (x8 : (⟨S512, .f32⟩ : BufTy).Contents (Elt Ideal)) (i : S8192x512.Idx) :
    val_main_v39 (F := Ideal) x0 x1 x7 x8 i = Ideal.tanh (pre x0 x1 x7 x8 (i 0) (i 1)) := by
  rw [val_main_v39_apply, gate_c]
  rfl

/-! ## The cell step -/

/-- the reference's new cell state is the specification's -/
theorem ref_c (x0 x1 x2 : (⟨S8192x512, .f32⟩ : BufTy).Contents (Elt Ideal)) (x3 : (⟨S512x1024, .f32⟩ : BufTy).Contents (Elt Ideal)) (x4 : (⟨S512, .f32⟩ : BufTy).Contents (Elt Ideal)) (x5 : (⟨S512x1024, .f32⟩ : BufTy).Contents (Elt Ideal)) (x6 : (⟨S512, .f32⟩ : BufTy).Contents (Elt Ideal)) (x7 : (⟨S512x1024, .f32⟩ : BufTy).Contents (Elt Ideal)) (x8 : (⟨S512, .f32⟩ : BufTy).Contents (Elt Ideal)) :
    val_main_v42 (F := Ideal) x0 x1 x2 x3 x4 x5 x6 x7 x8 = Gc x0 x1 x2 x3 x4 x5 x6 x7 x8 := by
  funext i
  rw [val_main_v42_apply, val_main_v40_apply, val_main_v41_apply, sigmoid_f, sigmoid_i, tanh_c]
  -- every index is the pair of its two coordinates
  have hc : x2 i = x2 (ix2 (i 0) (i 1)) := congrArg x2 (eq_ix2 (n0 := 8192) (n1 := 512) i)
  rw [hc]
  rfl

/-- the reference's new hidden state is the specification's -/
theorem ref_h (x0 x1 x2 : (⟨S8192x512, .f32⟩ : BufTy).Contents (Elt Ideal)) (x3 : (⟨S512x1024, .f32⟩ : BufTy).Contents (Elt Ideal)) (x4 : (⟨S512, .f32⟩ : BufTy).Contents (Elt Ideal)) (x5 : (⟨S512x1024, .f32⟩ : BufTy).Contents (Elt Ideal)) (x6 : (⟨S512, .f32⟩ : BufTy).Contents (Elt Ideal)) (x7 : (⟨S512x1024, .f32⟩ : BufTy).Contents (Elt Ideal)) (x8 : (⟨S512, .f32⟩ : BufTy).Contents (Elt Ideal)) (x9 : (⟨S512x1024, .f32⟩ : BufTy).Contents (Elt Ideal)) (x10 : (⟨S512, .f32⟩ : BufTy).Contents (Elt Ideal)) :
    val_main_v44 (F := Ideal) x0 x1 x2 x3 x4 x5 x6 x7 x8 x9 x10 = Gh x0 x1 x2 x3 x4 x5 x6 x7 x8 x9 x10 := by
  funext i
  rw [val_main_v44_apply, val_main_v43_apply, sigmoid_o, ref_c]
  rfl

end Cert.ReferenceIdeal.RefValue

end
-- ==== Proof.lean ====
/-
  A fused LSTM cell step against its plain reference, on extended reals.

  Both programs take x, h, c (8192 batch rows by 512 units), four gate weights W (512 by 1024: 512 input columns,
  then 512 hidden columns) and four biases. With
      pre W b (r, j) = Σ_{k<512} x(r,k)·W(j,k) + Σ_{k<512} h(r,k)·W(j,512+k) + b(j)
  both return  c' = σ(pre W_f b_f)·c + σ(pre W_i b_i)·tanh(pre W_c b_c)  and  h' = σ(pre W_o b_o)·tanh(c').

  The kernel walks the batch in 16 blocks of 512 rows; the host hands it each weight as its two transposed halves
  and each bias as a row, and the body forms X·Wx + H·Wh + B by two matrix products per gate. Its format changes
  are the identity on extended reals and its logistic function is the reference's 1/(1 + exp(−y)) by definition.
  The reference joins [x, h] into rows of 1024 and contracts once per gate. The two agree entry by entry because a
  sum over 1024 positions is the sum over its two halves — a fact about commutative addition, so the finiteness of
  the inputs is never used. `LstmSpec` states the cell step, `KernelValue` shows the kernel's results are it,
  `RefIsSpec` that the reference's are.

  The three frames: the two kernel programs' are the generated ones; the reference's is its generated run with the
  results dropped. The idealization rewrote nothing, so there is nothing to preserve.
-/
import proofs.«119501_j2052994367705_1_alg».proof.Defs
import proofs.«119501_j2052994367705_1_alg».proof.Proof.Gen.Kernel
import proofs.«119501_j2052994367705_1_alg».proof.Proof.Gen.Kernel.Frame
import proofs.«119501_j2052994367705_1_alg».proof.Proof.Gen.KernelIdeal
import proofs.«119501_j2052994367705_1_alg».proof.Proof.Gen.KernelIdeal.Frame
import proofs.«119501_j2052994367705_1_alg».proof.Proof.Gen.KernelIdeal.Value
import proofs.«119501_j2052994367705_1_alg».proof.Proof.Gen.ReferenceIdeal
import proofs.«119501_j2052994367705_1_alg».proof.Proof.Gen.ReferenceIdeal.Run
import proofs.«119501_j2052994367705_1_alg».proof.Proof.Gen.ReferenceIdeal.Read
import proofs.«119501_j2052994367705_1_alg».proof.Proof.Gen.Pre_finite_inputs
import proofs.«119501_j2052994367705_1_alg».proof.Proof.LstmSpec
import proofs.«119501_j2052994367705_1_alg».proof.Proof.KernelValue
import proofs.«119501_j2052994367705_1_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its arguments as they were. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both programs end with the specification's new hidden state and new
    cell state of those arguments. -/
theorem algebraic : Cert.algebraic_KernelIdeal_ReferenceIdeal := by
  intro m ρ m' ρ' _ hagree
  refine ⟨fun c => Cert.Lstm.Gh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Lstm.Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RefValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v44_eq, Cert.ReferenceIdeal.RefValue.ref_h, h0, h1, h2, h3, h4, h5, h6, h7, h8, h9, h10]
  · obtain ⟨h0, h1, h2, h3, h4, h5, h6, h7, h8, -, -⟩ := hagree c
    rw [Cert.ReferenceIdeal.Read.val_main_v42_eq, Cert.ReferenceIdeal.RefValue.ref_c, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
